-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x1x1 : Shape := ⟨3, ![2, 1, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1x1 : S_.BroadcastsInDim S2x1x1 (![] : Fin 0 → Fin S2x1x1.rank)
  reducesTo_S2x1x1_S_d0_1_2 : S2x1x1.ReducesTo [0, 1, 2] S_

variable [Facts]

def fn_part1 {F : FTy → Type} [FloatOps F] (main_arg4 : FVec F S2x1x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x1x1 .f32 := Host.absf main_arg4
  let main_cst_6 : FVec F S_ .f32 := constant S_ .f32 0x7F800000#32
  let main_v20 : FVec F S2x1x1 .f32 := broadcastInDim S2x1x1 ![] bcast_S_S2x1x1 main_cst_6
  let main_v21 : IVec S2x1x1 1 := cmpf .olt main_v19 main_v20
  let main_c_7 : IVec S_ 1 := constantI S_ 1 1#1
  let main_v22 : IVec S_ 1 := (fun x v => Host.reduce IntOp.andi x v reducesTo_S2x1x1_S_d0_1_2 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S2x1x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x1x1 : Shape := ⟨3, ![2, 1, 1]⟩
abbrev S1x128 : Shape := ⟨2, ![1, 128]⟩
abbrev S1x2 : Shape := ⟨2, ![1, 2]⟩
abbrev S400x10000 : Shape := ⟨2, ![400, 10000]⟩
abbrev S400x128 : Shape := ⟨2, ![400, 128]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S2x1x1, .f32⟩
  | .hbm, ⟨5, _⟩ => ⟨S1x128, .f32⟩
  | .hbm, ⟨6, _⟩ => ⟨S1x2, .f32⟩
  | .hbm, ⟨7, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x2, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  shapeCasts_S2x1x1_S1x2 : S2x1x1.ShapeCasts S1x2
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  inb_S1x2_S1x1_0_0 : ∀ a, (![0, 0] : Fin 2 → Nat) a + S1x1.size a ≤ S1x2.size a
  h_S1x1 : 0 < S1x1.numel
  inpos_S1x1_p0_0 : ∀ a, (![0, 0] : Fin 2 → Nat) a < S1x1.size a
  inb_S1x2_S1x1_0_1 : ∀ a, (![0, 1] : Fin 2 → Nat) a + S1x1.size a ≤ S1x2.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x1x1 : Shape := ⟨3, ![2, 1, 1]⟩
abbrev S1x10000x128 : Shape := ⟨3, ![1, 10000, 128]⟩
abbrev S2x10000x128 : Shape := ⟨3, ![2, 10000, 128]⟩
abbrev S_ : Shape := ⟨0, ![]⟩
abbrev S1x1 : Shape := ⟨2, ![1, 1]⟩
abbrev S1x1x1 : Shape := ⟨3, ![1, 1, 1]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S2x1x1, .f32⟩
  | .hbm, ⟨5, _⟩ => ⟨S10000x128, .f32⟩
  | .hbm, ⟨6, _⟩ => ⟨S10000x128, .f32⟩
  | .hbm, ⟨7, _⟩ => ⟨S1x10000x128, .f32⟩
  | .hbm, ⟨8, _⟩ => ⟨S1x10000x128, .f32⟩
  | .hbm, ⟨9, _⟩ => ⟨S2x10000x128, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S1x1, .f32⟩
  | .hbm, ⟨15, _⟩ => ⟨S1x1x1, .f32⟩
  | .hbm, ⟨16, _⟩ => ⟨S2x1x1, .f32⟩
  | .hbm, ⟨17, _⟩ => ⟨S2x1x1, .f32⟩
  | .hbm, ⟨18, _⟩ => ⟨S2x1x1, .f32⟩
  | .hbm, ⟨19, _⟩ => ⟨S_, .f32⟩
  | .hbm, ⟨20, _⟩ => ⟨S1x1, .f32⟩
  | .hbm, ⟨21, _⟩ => ⟨S1x1x1, .f32⟩
  | .hbm, ⟨22, _⟩ => ⟨S2x1x1, .f32⟩
  | .hbm, ⟨23, _⟩ => ⟨S2x1x1, .f32⟩
  | .hbm, ⟨24, _⟩ => ⟨S2x10000x128, .f32⟩
  | .hbm, ⟨25, _⟩ => ⟨S2x10000x128, .f32⟩
  | .hbm, ⟨26, _⟩ => ⟨S_, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .i1⟩
  | .hbm, ⟨34, _⟩ => ⟨S_, .f32⟩
  | .hbm, ⟨35, _⟩ => ⟨S10000x128, .f32⟩
  | .hbm, ⟨36, _⟩ => ⟨S10000x128, .i1⟩
  | .hbm, ⟨37, _⟩ => ⟨S_, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_cst_1 : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_v4 : Ref sig .tc := ⟨.hbm, 40, rfl⟩
abbrev main_call0_v5 : Ref sig .tc := ⟨.hbm, 41, rfl⟩
abbrev main_call0_cst_2 : Ref sig .tc := ⟨.hbm, 42, rfl⟩
abbrev main_call0_v6 : Ref sig .tc := ⟨.hbm, 43, rfl⟩
abbrev main_call0_v7 : Ref sig .tc := ⟨.hbm, 44, rfl⟩
abbrev main_v22 : Ref sig .tc := ⟨.hbm, 45, rfl⟩

abbrev nD : Nat := 1
abbrev τ : Topo := Topo.v7x

variable {F : FTy → Type} [FloatOps F]

class Facts₀ : Prop where
  bcast_S10000x128_S1x10000x128_1_2 : S10000x128.BroadcastsInDim S1x10000x128 (![1, 2] : Fin 2 → Fin S1x10000x128.rank)
  concatenates_S1x10000x128_S1x10000x128_S2x10000x128_d0 : Shape.Concatenates [S1x10000x128, S1x10000x128] S2x10000x128 0
  reducesTo_S2x1x1_S1x1_d0 : S2x1x1.ReducesTo [0] S1x1
  h_S_ : 0 < S_.numel
  bcast_S_S1x1 : S_.BroadcastsInDim S1x1 (![] : Fin 0 → Fin S1x1.rank)
  bcast_S1x1_S1x1x1_1_2 : S1x1.BroadcastsInDim S1x1x1 (![1, 2] : Fin 2 → Fin S1x1x1.rank)
  bcast_S1x1x1_S2x1x1_0_1_2 : S1x1x1.BroadcastsInDim S2x1x1 (![0, 1, 2] : Fin 3 → Fin S2x1x1.rank)
  bcast_S2x1x1_S2x10000x128_0_1_2 : S2x1x1.BroadcastsInDim S2x10000x128 (![0, 1, 2] : Fin 3 → Fin S2x10000x128.rank)
  reducesTo_S2x10000x128_S10000x128_d0 : S2x10000x128.ReducesTo [0] S10000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSpec.lean ====
/-
  The gated graph-convolution layer as ONE function of its five argument arrays, entry by entry, on the
  extended reals:

      out(i, j) = elu( g0 · (A · (X · W))(i, j) + g1 · X(i, j) + b(j) ),      (g0, g1) = softmax(alpha),

  with X : [10000, 128] the node features, A : [10000, 10000] the dense adjacency, W : [128, 128] the weight,
  b : [128] the bias and alpha : [2, 1, 1] the two gate logits. The two matrix products are plain finite sums in
  the order "first X·W, then A·(X·W)"; the softmax of two logits is taken with the maximum subtracted;
  elu(y) = y for y > 0 and e^y − 1 otherwise.

  Besides the definitions: the scalar laws that bring the two spellings of elu met in practice to this one —
  e^{min(y,0)} − 1 and 1 · (e^{y'} − 1) with y' = y off the positive branch —, and the value of the float word
  of 1.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx
open scoped BigOperators

/-- The shapes of the five arguments (the result has the features' shape). -/
abbrev SX : Shape := ⟨2, ![10000, 128]⟩
abbrev SA : Shape := ⟨2, ![10000, 10000]⟩
abbrev SW : Shape := ⟨2, ![128, 128]⟩
abbrev SB : Shape := ⟨1, ![128]⟩
abbrev SG : Shape := ⟨3, ![2, 1, 1]⟩

/-- Entry (k, j) of the support X · W. -/
def support (x : SX.Idx → EReal) (w : SW.Idx → EReal) (k : Fin 10000) (j : Fin 128) : EReal :=
  ∑ l : Fin 128, x (ix2 k l) * w (ix2 l j)

/-- Entry (i, j) of the propagated features A · (X · W). -/
def propagated (x : SX.Idx → EReal) (a : SA.Idx → EReal) (w : SW.Idx → EReal) (i : Fin 10000) (j : Fin 128) : EReal :=
  ∑ k : Fin 10000, a (ix2 i k) * support x w k j

/-- The softmax weight of the logit `l` among the two logits `l0`, `l1`, the maximum subtracted before the
    exponentials. -/
def weight (l0 l1 l : EReal) : EReal :=
  Ideal.div (Ideal.exp (l - max l0 l1)) (Ideal.exp (l0 - max l0 l1) + Ideal.exp (l1 - max l0 l1))

/-- The gate on the propagated features and the gate on the raw features. -/
def gate0 (al : SG.Idx → EReal) : EReal := weight (al (ix3 0 0 0)) (al (ix3 1 0 0)) (al (ix3 0 0 0))
def gate1 (al : SG.Idx → EReal) : EReal := weight (al (ix3 0 0 0)) (al (ix3 1 0 0)) (al (ix3 1 0 0))

/-- The exponential linear unit. -/
def elu (y : EReal) : EReal := if 0 < y then y else Ideal.exp y - 1

/-- Entry (i, j) before the activation. -/
def pre (x : SX.Idx → EReal) (a : SA.Idx → EReal) (w : SW.Idx → EReal) (b : SB.Idx → EReal) (al : SG.Idx → EReal)
    (i : Fin 10000) (j : Fin 128) : EReal :=
  gate0 al * propagated x a w i j + gate1 al * x (ix2 i j) + b (ix1 j)

/-- THE LAYER: the result array as one function of the argument arrays. -/
def layer (x : SX.Idx → EReal) (a : SA.Idx → EReal) (w : SW.Idx → EReal) (b : SB.Idx → EReal) (al : SG.Idx → EReal) :
    SX.Idx → EReal :=
  fun i => elu (pre x a w b al (i 0) (i 1))

theorem layer_apply (x : SX.Idx → EReal) (a : SA.Idx → EReal) (w : SW.Idx → EReal) (b : SB.Idx → EReal) (al : SG.Idx → EReal)
    (p : Fin 10000) (q : Fin 128) : layer x a w b al (ix2 p q) = elu (pre x a w b al p q) := rfl

/-! ## The float words of 0 and 1, and the two spellings of elu -/

theorem ofBits_one_f32 : Ideal.ofBits .f32 0x3F800000#32 = 1 := by
  simp [Ideal.ofBits, Ideal.ieee, -EReal.coe_mul]; norm_num

/-- elu spelled with a clamped exponent: select (y > 0) y (e^{min(y, 0)} − 1). -/
theorem elu_of_min (y : EReal) :
    Scalar.select (Ideal.cmp .ogt y (Ideal.ofBits .f32 0x00000000#32)) y
      (Ideal.exp (min y (Ideal.ofBits .f32 0x00000000#32)) - Ideal.ofBits .f32 0x3F800000#32) = elu y := by
  rw [Ideal.ofBits_zero_f32, ofBits_one_f32]
  unfold elu Scalar.select Ideal.cmp
  by_cases h : 0 < y
  · simp [h]
  · have hm : min y 0 = y := min_eq_left (not_lt.mp h)
    simp [h, hm]

/-- elu spelled through e^z − 1 at a guarded argument and a product with the word of 1:
    select (y > 0) y (1 · (e^{z} − 1)), z = select (y > 0) 0 y. -/
theorem elu_of_guard (y : EReal) :
    Scalar.select (Ideal.cmp .ogt y (Ideal.ofBits .f32 0x00000000#32)) y
      (Ideal.ofBits .f32 0x3F800000#32
        * (Ideal.exp (Scalar.select (Ideal.cmp .ogt y (Ideal.ofBits .f32 0x00000000#32))
            (Ideal.ofBits .f32 0x00000000#32) y) - 1)) = elu y := by
  rw [Ideal.ofBits_zero_f32, ofBits_one_f32]
  unfold elu Scalar.select Ideal.cmp
  by_cases h : 0 < y
  · simp [h]
  · simp [h]

end Cert.GcnSpec

end
-- ==== Proof.KernelPieces.lean ====
/-
  What one grid point of the kernel leaves behind, read back as values.

  The body has two cases. At the first point it computes the support X·W from the resident features and the
  weight, stores it into the scratch it carries to the later points, and then computes its strip of the result
  from the support it has just stored; at every later point it stores nothing into the scratch and computes its
  strip from the support the scratch already holds. In both cases the strip of the result is ONE covering store
  of one payload, a function of: the 400×10000 strip of the adjacency, the support, rows 400·i … 400·i+399 of
  the resident features, the two gate logits (two one-entry loads of the [1,2] logit row) and the bias row.
-/
import proofs.«160359_g19413252178072_cont_8to1_419_21_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Rows 400·i … 400·i+399 of the resident features: the rows of the result strip of point `i`. -/
abbrev rowsOf (i : grid0.Coords) (x1 : Vec F S10000x128 .f32) : Vec F S400x128 .f32 :=
  View.ld x1 (Rect.unit (s := S10000x128) (k0_off1 i) S400x128.size (k0_off1_inb i))

/-- The first and the second gate logit, as the one-entry vectors the body loads. -/
abbrev logit0 (x4 : Vec F S1x2 .f32) : Vec F S1x1 .f32 :=
  View.ld x4 (Rect.unit (s := S1x2) ![0, 0] S1x1.size inb_S1x2_S1x1_0_0)
abbrev logit1 (x4 : Vec F S1x2 .f32) : Vec F S1x1 .f32 :=
  View.ld x4 (Rect.unit (s := S1x2) ![0, 1] S1x1.size inb_S1x2_S1x1_0_1)

/-- At the first point the scratch ends holding the support of the resident features and the weight. -/
theorem scratch_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S1x2 .f32) (h5 : a5.IsWhole) (a6 : Memref sig .tc .vmem S400x128 .f32) (h6 : a6.IsWhole) (a7 : Memref sig .tc .vmem S10000x128 .bf16) (h7 : a7.IsWhole) (hc : cond0_0 i) (x0 : Vec F S400x10000 .f32) (x1 : Vec F S10000x128 .f32) (x2 : Vec F S128x128 .f32) (x3 : Vec F S1x128 .f32) (x4 : Vec F S1x2 .f32) :
    sout0_A_0 c i a1 h1 a2 h2 a3 h3 a4 h4 a5 h5 a6 h6 a7 h7 hc x0 x1 x2 x3 x4 = k0_pay1 x1 x2 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_run_names
  rw [View.canon_unit_zero hz]
  simp only [View.readAt_eq_ld, h2.read_unread, h3.read_unread, View.ld_unit_zero (S := S10000x128) hz,
    View.ld_unit_zero (S := S128x128) hz]

/-- At the first point the result strip is the payload at the support just computed. -/
theorem strip_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S1x2 .f32) (h5 : a5.IsWhole) (a6 : Memref sig .tc .vmem S400x128 .f32) (h6 : a6.IsWhole) (a7 : Memref sig .tc .vmem S10000x128 .bf16) (h7 : a7.IsWhole) (hc : cond0_0 i) (x0 : Vec F S400x10000 .f32) (x1 : Vec F S10000x128 .f32) (x2 : Vec F S128x128 .f32) (x3 : Vec F S1x128 .f32) (x4 : Vec F S1x2 .f32) :
    out0_A_5 c i a1 h1 a2 h2 a3 h3 a4 h4 a5 h5 a6 h6 a7 h7 hc x0 x1 x2 x3 x4
      = k0_pay2 x0 (k0_pay1 x1 x2) (rowsOf i x1) (logit0 x4) (logit1 x4) x3 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_run_names
  rw [View.canon_unit_zero hz, View.readCov_unit_zero (S := S10000x128) _ hz]
  simp only [View.readAt_eq_ld, h1.read_unread, h2.read_unread, h3.read_unread, h4.read_unread, h5.read_unread,
    View.ld_unit_zero (S := S400x10000) hz, View.ld_unit_zero (S := S10000x128) hz,
    View.ld_unit_zero (S := S128x128) hz, View.ld_unit_zero (S := S1x128) hz]

/-- At a later point the result strip is the payload at what the scratch holds. -/
theorem strip_later (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S1x2 .f32) (h5 : a5.IsWhole) (a6 : Memref sig .tc .vmem S400x128 .f32) (h6 : a6.IsWhole) (a7 : Memref sig .tc .vmem S10000x128 .bf16) (h7 : a7.IsWhole) (hc : ¬cond0_0 i) (x0 : Vec F S400x10000 .f32) (x1 : Vec F S10000x128 .f32) (x2 : Vec F S128x128 .f32) (x3 : Vec F S1x128 .f32) (x4 : Vec F S1x2 .f32) (xs0 : Vec F S10000x128 .bf16) :
    out0_B_5 c i a1 h1 a2 h2 a3 h3 a4 h4 a5 h5 a6 h6 a7 h7 hc x0 x1 x2 x3 x4 xs0
      = k0_pay2 x0 xs0 (rowsOf i x1) (logit0 x4) (logit1 x4) x3 := by
  unfold out0_B_5
  rw [View.read_writes_eq_canon _ _ _ (cover0_B_5 c i a1 h1 a2 h2 a3 h3 a4 h4 a5 h5 a6 h6 a7 h7 hc x0 x1 x2 x3 x4 xs0)]
  unfold kernelRun0_B
  dsimp only
  sl_unfold_run_names
  rw [View.canon_unit_zero hz]
  simp only [View.readAt_eq_ld, h1.read_unread, h2.read_unread, h4.read_unread, h5.read_unread, h7.read_unread,
    View.ld_unit_zero (S := S400x10000) hz, View.ld_unit_zero (S := S10000x128) hz, View.ld_unit_zero (S := S1x128) hz]

end Cert.KernelIdeal.Pieces

end
-- ==== Proof.KernelEntry.lean ====
/-
  The kernel body's two payloads, read entry by entry on the extended reals (every operation exact, a change
  of float format the identity).

  The first payload is the support X · W:
      pay1(k, j) = ∑ₗ X(k, l) · W(l, j).
  The second is one strip of 400 rows of the layer: with the strip A of the adjacency, the support S, the strip
  X' of the features, the two gate logits a₀, a₁ (each a one-entry array) and the bias row b,
      pay2(r, q) = elu( g₀ · ∑ₖ A(r, k) · S(k, q) + g₁ · X'(r, q) + b(q) ),
  where (g₀, g₁) is the softmax of (a₀, a₁) with the maximum subtracted before the exponentials, and
  elu(y) = y for y > 0 and e^y − 1 otherwise (the kernel spells it through e^{min(y, 0)} − 1).
-/
import proofs.«160359_g19413252178072_cont_8to1_419_21_alg».proof.Proof.Gen.KernelIdeal.Skeleton
import proofs.«160359_g19413252178072_cont_8to1_419_21_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx
open scoped BigOperators

/-! ## A matrix product into the zero accumulator, at an entry -/

/-- The product of an m×k by a k×n matrix, the left operand's columns contracted against the right operand's
    rows and nothing added to it, has at (a, b) the sum over the contracted coordinate c of the products of the
    entries (a, c) and (c, b). -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val (⟨[1], [0], [0], [1], [], [], w⟩ : DotDims _ _ _) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-! ## The support -/

/-- Entry (k, j) of the first payload: the row k of the features against the column j of the weight. -/
theorem pay1_apply (x1 : FVec Ideal S10000x128 .f32) (x2 : FVec Ideal S128x128 .f32) (k : Fin 10000) (j : Fin 128) :
    k0_pay1 (F := Ideal) x1 x2 (ix2 k j) = ∑ l : Fin 128, x1 (ix2 k l) * x2 (ix2 l j) := by
  unfold k0_pay1
  rw [shapeCast_self]
  exact matmul_zero_apply dot_S10000x128_S128x128_S10000x128_1_0_0_1_n_n_wf _ _ k j

/-! ## One strip of the layer -/

/-- The one entry of a one-by-one array, extracted at position (0, 0). -/
theorem extractAt_1x1 {α : Type} (v : S1x1.Idx → α) (h : ∀ a, (![0, 0] : Fin 2 → Nat) a < S1x1.size a) :
    extractAt ![0, 0] v h = v (ix2 0 0) := by
  unfold extractAt
  congr 1
  funext a
  match a with
  | ⟨0, _⟩ => rfl
  | ⟨1, _⟩ => rfl

/-- The softmax of two logits as the kernel computes it on scalars — the maximum subtracted, the two
    exponentials, their sum, the quotient — is the weight of the specification. -/
theorem softmax_weight (a0 a1 a : Ideal .f32) :
    Scalar.divf (Scalar.exp (Scalar.subf a (Scalar.maximumf a0 a1)))
        (Scalar.addf (Scalar.exp (Scalar.subf a0 (Scalar.maximumf a0 a1)))
          (Scalar.exp (Scalar.subf a1 (Scalar.maximumf a0 a1))))
      = Cert.GcnSpec.weight a0 a1 a := rfl

/-- The activation at an entry: select (y > 0) y (e^{min(y, 0)} − 1), taken entry by entry against the splats of
    the words of 0 and 1, is elu of the entry. -/
theorem elu_tail_apply {s : Shape} (y : FVec Ideal s .f32) (i : s.Idx) :
    select (cmpf .ogt y (broadcast s (Scalar.ofBits (F := Ideal) .f32 0x00000000#32))) y
        (subf (exp (minimumf y (broadcast s (Scalar.ofBits (F := Ideal) .f32 0x00000000#32))))
          (broadcast s (Scalar.ofBits (F := Ideal) .f32 0x3F800000#32))) i
      = Cert.GcnSpec.elu (y i) :=
  Cert.GcnSpec.elu_of_min (y i)

/-- Entry (r, q) of the second payload: elu of the gated sum of the propagated row, the feature row and the
    bias. -/
theorem pay2_apply (v3 : FVec Ideal S400x10000 .f32) (v5 : FVec Ideal S10000x128 .bf16) (v9 : FVec Ideal S400x128 .f32)
    (v10 v12 : FVec Ideal S1x1 .f32) (v28 : FVec Ideal S1x128 .f32) (r : Fin 400) (q : Fin 128) :
    k0_pay2 (F := Ideal) v3 v5 v9 v10 v12 v28 (ix2 r q)
      = Cert.GcnSpec.elu
          (Cert.GcnSpec.weight (v10 (ix2 0 0)) (v12 (ix2 0 0)) (v10 (ix2 0 0)) * (∑ k : Fin 10000, v3 (ix2 r k) * v5 (ix2 k q))
            + Cert.GcnSpec.weight (v10 (ix2 0 0)) (v12 (ix2 0 0)) (v12 (ix2 0 0)) * v9 (ix2 r q)
            + v28 (ix2 0 q)) := by
  -- the strip of the adjacency against the support, at (r, q)
  have hm : matmul dot_S400x10000_S10000x128_S400x128_1_0_0_1_n_n none (truncf .bf16 v3 bitsLt_bf16_f32) v5
        (constant (F := Ideal) S400x128 .f32 0x00000000#32) (ix2 r q)
      = ∑ k : Fin 10000, v3 (ix2 r k) * v5 (ix2 k q) :=
    matmul_zero_apply dot_S400x10000_S10000x128_S400x128_1_0_0_1_n_n_wf _ _ r q
  -- the bias row repeated over the 400 rows, at (r, q)
  have hb : broadcastTo S400x128 (shapeCast S1x128 v28 shapeCasts_S1x128_S1x128) broadcasts_S1x128_S400x128 (ix2 r q)
      = v28 (ix2 0 q) := by
    rw [shapeCast_self]
    exact broadcastTo_1b_ab_apply v28 _ r q
  unfold k0_pay2
  -- the activation, entry by entry: what is left is the entry of its argument
  refine (elu_tail_apply _ _).trans (congrArg Cert.GcnSpec.elu ?_)
  -- the argument is gate · product + gate · features + bias, each gate a splat scalar; the two gates are the
  -- softmax weights of the two logits, each logit the one entry of its array
  simp only [addf_apply, mulf_apply, broadcast_apply]
  rw [hm, hb, extractAt_1x1, extractAt_1x1, softmax_weight, softmax_weight]

end Cert.KernelIdeal.Entry

end
-- ==== Proof.KernelArray.lean ====
/-
  The kernel's result array, point by point and then whole.

  The grid has 25 points; point t stages the 400-row strip t of the adjacency and the whole of the features,
  the weight, the bias row and the logit row, and writes back strip t of the result. The support X·W is
  computed at point 0 into a scratch the later points only read: after EVERY point the scratch holds the
  support of the staged features and weight (induction on the point). So at every point the strip written
  back is the same payload of the point's blocks and that support; read entry by entry it is the layer at
  rows 400·t … 400·t+399, the 25 strips tile the result array, and the array after the run is the layer.
-/
import proofs.«160359_g19413252178072_cont_8to1_419_21_alg».proof.Proof.Gen.KernelIdeal.Value
import proofs.«160359_g19413252178072_cont_8to1_419_21_alg».proof.Proof.KernelPieces
import proofs.«160359_g19413252178072_cont_8to1_419_21_alg».proof.Proof.KernelEntry
import proofs.«160359_g19413252178072_cont_8to1_419_21_alg».proof.Proof.GcnSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Pieces Idealize.ShloMosaic.ValueIdx

section AnyInstance

variable {F : FTy → Type} [FloatOps F]
variable (m : (ℓ : Loc nD τ sig) → Buf (Elt F) ℓ) (ρ : Dev nD → PrngReg)

/-- The printed index maps and the body's load offset, decided once over the 25 points: the adjacency's and the
    result's block index is the point, every other window stays at block 0, and the body reads the features from
    row 400·t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ k0_off1 (grid0.coords t) (0 : Fin 2) = 400 * t.val ∧ k0_off1 (grid0.coords t) (1 : Fin 2) = 0 :=
  (by decide +kernel : ∀ t : Fin grid0.N, _)

/-- The features' window stages the whole array at every point. -/
theorem blk1_eq (c : Dev nD) (t : Fin cfg0.N) : (iblk m c 1 t : Vec F S10000x128 .f32) = V m c main_arg0 := by
  obtain ⟨-, -, e0, e1, -⟩ := idx_facts t
  funext j
  show V m c main_arg0 (((cfg0.win 1).blk t).view.emb j) = V m c main_arg0 j
  congr 1
  funext a; apply Fin.ext
  match a with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega

/-- So does the weight's. -/
theorem blk2_eq (c : Dev nD) (t : Fin cfg0.N) : (iblk m c 2 t : Vec F S128x128 .f32) = V m c main_arg2 := by
  obtain ⟨-, -, -, -, e0, e1, -⟩ := idx_facts t
  funext j
  show V m c main_arg2 (((cfg0.win 2).blk t).view.emb j) = V m c main_arg2 j
  congr 1
  funext a; apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The support of the features and the weight as the region finds them: what the first point stores into the
    scratch. -/
abbrev held (c : Dev nD) : Vec F S10000x128 .bf16 := k0_pay1 (V m c main_arg0) (V m c main_arg2)

/-- A point of the first case leaves the support in the scratch. -/
theorem scratch_first_point (c : Dev nD) (t : Fin cfg0.N) (h0 : t.val % 25 = 0) :
    (outsAt0 m c t.val t.isLt).2 = held m c := by
  rw [outsAt0_A m c t h0]
  dsimp only
  exact (scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans
    (congrArg₂ (k0_pay1 (F := F)) (blk1_eq m c t) (blk2_eq m c t))

/-- A point of the second case leaves the scratch as the point before left it. -/
theorem scratch_later_point (c : Dev nD) (t : Fin cfg0.N) (h0 : ¬t.val % 25 = 0) :
    (outsAt0 m c t.val t.isLt).2 = (outsAt0 m c (t.val - 1) (Nat.lt_of_le_of_lt (Nat.sub_le _ _) t.isLt)).2 := by
  rw [outsAt0_B m c t h0]
  dsimp only
  rfl

/-- After every point the scratch holds that support: the first point stores it, a later point stores nothing. -/
theorem scratch_at (c : Dev nD) : ∀ (n : ℕ) (hn : n < cfg0.N), (outsAt0 m c n hn).2 = held m c := by
  intro n
  induction n with
  | zero => intro hn; exact scratch_first_point m c ⟨0, hn⟩ rfl
  | succ n ih =>
    intro hn
    have hN : cfg0.N = 25 := N_0
    have hB : ¬(⟨n + 1, hn⟩ : Fin cfg0.N).val % 25 = 0 := by dsimp only; omega
    exact (scratch_later_point m c ⟨n + 1, hn⟩ hB).trans (ih _)

/-- The strip every point writes back: the body's payload at the point's blocks and the held support. -/
theorem strip_at (c : Dev nD) (t : Fin cfg0.N) :
    (outsAt0 m c t.val t.isLt).1
      = k0_pay2 (iblk m c 0 t) (held m c) (rowsOf (grid0.coords t) (iblk m c 1 t)) (logit0 (iblk m c 4 t))
          (logit1 (iblk m c 4 t)) (iblk m c 3 t) := by
  by_cases h0 : t.val % 25 = 0
  · rw [outsAt0_A m c t h0]
    dsimp only
    exact (strip_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans
      (congrArg (fun s => k0_pay2 (iblk m c 0 t) s (rowsOf (grid0.coords t) (iblk m c 1 t)) (logit0 (iblk m c 4 t)) (logit1 (iblk m c 4 t)) (iblk m c 3 t))
        (congrArg₂ (k0_pay1 (F := F)) (blk1_eq m c t) (blk2_eq m c t)))
  · rw [outsAt0_B m c t h0]
    dsimp only
    exact (strip_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2).trans
      (congrArg (fun s => k0_pay2 (iblk m c 0 t) s (rowsOf (grid0.coords t) (iblk m c 1 t)) (logit0 (iblk m c 4 t)) (logit1 (iblk m c 4 t)) (iblk m c 3 t)) (scratch_at m c (t.val - 1) _))

end AnyInstance

/-! ## At the ideal instance: every strip is the layer on its rows -/

section AtIdeal

variable (m : (ℓ : Loc nD τ sig) → Buf (Elt Ideal) ℓ) (ρ : Dev nD → PrngReg)

/-- The five argument arrays as launched. -/
abbrev argX (c : Dev nD) : S10000x128.Idx → EReal := m ((c : Thread nD τ).loc main_arg0)
abbrev argA (c : Dev nD) : S10000x10000.Idx → EReal := m ((c : Thread nD τ).loc main_arg1)
abbrev argW (c : Dev nD) : S128x128.Idx → EReal := m ((c : Thread nD τ).loc main_arg2)
abbrev argB (c : Dev nD) : S128.Idx → EReal := m ((c : Thread nD τ).loc main_arg3)
abbrev argG (c : Dev nD) : S2x1x1.Idx → EReal := m ((c : Thread nD τ).loc main_arg4)

/-- THE RESULT: the layer of the argument arrays. -/
abbrev result (c : Dev nD) : S10000x128.Idx → EReal :=
  Cert.GcnSpec.layer (argX m c) (argA m c) (argW m c) (argB m c) (argG m c)

/-- Row r of strip t is row 400·t + r of the array. -/
abbrev rowAt (t : Fin cfg0.N) (r : Fin 400) : Fin 10000 :=
  ⟨400 * t.val + r.val, by have h1 := t.isLt; have hN : cfg0.N = 25 := N_0; have h2 := r.isLt; omega⟩

/-- The adjacency's block at point t is its strip t. -/
theorem adj_entry (c : Dev nD) (t : Fin cfg0.N) (r : Fin 400) (k : Fin 10000) :
    (iblk m c 0 t : Vec Ideal S400x10000 .f32) (ix2 r k) = argA m c (ix2 (rowAt t r) k) := by
  obtain ⟨e0, e1, -⟩ := idx_facts t
  show V m c main_arg1 (((cfg0.win 0).blk t).view.emb (ix2 r k)) = _
  refine (congrFun (V_main_arg1 m c) _).trans ?_
  refine congrArg (m ((c : Thread nD τ).loc main_arg1)) ?_
  funext a; apply Fin.ext
  match a with
  | ⟨0, _⟩ => show win0_0.index t (0 : Fin 2) * 400 + 1 * r.val = 400 * t.val + r.val; rw [e0]; omega
  | ⟨1, _⟩ => show win0_0.index t (1 : Fin 2) * 10000 + 1 * k.val = k.val; rw [e1]; omega

/-- The held support, entry by entry, is the support of the launched features and weight. -/
theorem held_entry (c : Dev nD) (k : Fin 10000) (j : Fin 128) :
    held m c (ix2 k j) = Cert.GcnSpec.support (argX m c) (argW m c) k j := by
  refine (Cert.KernelIdeal.Entry.pay1_apply (V m c main_arg0) (V m c main_arg2) k j).trans ?_
  unfold Cert.GcnSpec.support
  rw [V_main_arg0 m c, V_main_arg2 m c]

/-- The rows the body loads from the resident features at point t are rows 400·t … of the launched features. -/
theorem rows_entry (c : Dev nD) (t : Fin cfg0.N) (r : Fin 400) (q : Fin 128) :
    rowsOf (grid0.coords t) (iblk m c 1 t) (ix2 r q) = argX m c (ix2 (rowAt t r) q) := by
  obtain ⟨-, -, -, -, -, -, -, -, -, -, -, -, o0, o1⟩ := idx_facts t
  refine (congrFun (congrArg (rowsOf (grid0.coords t)) (blk1_eq m c t)) (ix2 r q)).trans ?_
  show V m c main_arg0 _ = _
  refine (congrFun (V_main_arg0 m c) _).trans ?_
  refine congrArg (m ((c : Thread nD τ).loc main_arg0)) ?_
  funext a; apply Fin.ext
  match a with
  | ⟨0, _⟩ => show k0_off1 (grid0.coords t) (0 : Fin 2) + 1 * r.val = 400 * t.val + r.val; rw [o0]; omega
  | ⟨1, _⟩ => show k0_off1 (grid0.coords t) (1 : Fin 2) + 1 * q.val = q.val; rw [o1]; omega

/-- The bias row the region finds is the launched bias as a one-row matrix. -/
theorem V_bias (c : Dev nD) :
    (V m c main_v0 : S1x128.Idx → EReal) = shapeCast S1x128 (m ((c : Thread nD τ).loc main_arg3)) shapeCasts_S128_S1x128 := by
  dsimp only [Gen.V, Gen.hostOps0]; after_results; rfl

/-- The logit row the region finds is the launched [2,1,1] logits as a [1,2] row. -/
theorem V_logits (c : Dev nD) :
    (V m c main_v1 : S1x2.Idx → EReal) = shapeCast S1x2 (m ((c : Thread nD τ).loc main_arg4)) shapeCasts_S2x1x1_S1x2 := by
  dsimp only [Gen.V, Gen.hostOps0]; after_results; rfl

/-- The staged bias row at column q is the launched bias at q. -/
theorem bias_entry (c : Dev nD) (t : Fin cfg0.N) (q : Fin 128) :
    (iblk m c 3 t : Vec Ideal S1x128 .f32) (ix2 0 q) = argB m c (ix1 q) := by
  obtain ⟨-, -, -, -, -, -, e0, e1, -⟩ := idx_facts t
  show V m c main_v0 (((cfg0.win 3).blk t).view.emb (ix2 0 q)) = _
  have hi : ((cfg0.win 3).blk t).view.emb (ix2 (0 : Fin 1) q) = (ix2 (0 : Fin 1) q : S1x128.Idx) := by
    funext a; apply Fin.ext
    match a with
    | ⟨0, _⟩ => show win0_3.index t (0 : Fin 2) * 1 + 1 * 0 = 0; rw [e0]
    | ⟨1, _⟩ => show win0_3.index t (1 : Fin 2) * 128 + 1 * q.val = q.val; rw [e1]; omega
  rw [hi]
  refine (congrFun (V_bias m c) _).trans ?_
  exact shapeCast_a_1a_apply _ _ 0 q

/-- The two staged logits are the launched logits (0,0,0) and (1,0,0). -/
theorem logit_entry (c : Dev nD) (t : Fin cfg0.N) (g : Fin 2) :
    (iblk m c 4 t : Vec Ideal S1x2 .f32) (ix2 0 g) = argG m c (ix3 g 0 0) := by
  obtain ⟨-, -, -, -, -, -, -, -, e0, e1, -⟩ := idx_facts t
  show V m c main_v1 (((cfg0.win 4).blk t).view.emb (ix2 0 g)) = _
  have hi : ((cfg0.win 4).blk t).view.emb (ix2 (0 : Fin 1) g) = (ix2 (0 : Fin 1) g : S1x2.Idx) := by
    funext a; apply Fin.ext
    match a with
    | ⟨0, _⟩ => show win0_4.index t (0 : Fin 2) * 1 + 1 * 0 = 0; rw [e0]
    | ⟨1, _⟩ => show win0_4.index t (1 : Fin 2) * 2 + 1 * g.val = g.val; rw [e1]; omega
  rw [hi]
  refine (congrFun (V_logits m c) _).trans ?_
  refine shapeCast_apply _ _ _ (ix3 g 0 0) ?_
  rw [Shape.rowMajor_val_three, Shape.rowMajor_val_two]
  show (g.val * 1 + 0) * 1 + 0 = 0 * 2 + g.val
  omega

theorem logit0_entry (c : Dev nD) (t : Fin cfg0.N) :
    logit0 (iblk m c 4 t) (ix2 0 0) = argG m c (ix3 0 0 0) := by
  refine Eq.trans ?_ (logit_entry m c t 0)
  show (iblk m c 4 t : Vec Ideal S1x2 .f32) _ = (iblk m c 4 t : Vec Ideal S1x2 .f32) _
  refine congrArg _ ?_
  funext a; apply Fin.ext
  match a with
  | ⟨0, _⟩ => rfl
  | ⟨1, _⟩ => rfl

theorem logit1_entry (c : Dev nD) (t : Fin cfg0.N) :
    logit1 (iblk m c 4 t) (ix2 0 0) = argG m c (ix3 1 0 0) := by
  refine Eq.trans ?_ (logit_entry m c t 1)
  show (iblk m c 4 t : Vec Ideal S1x2 .f32) _ = (iblk m c 4 t : Vec Ideal S1x2 .f32) _
  refine congrArg _ ?_
  funext a; apply Fin.ext
  match a with
  | ⟨0, _⟩ => rfl
  | ⟨1, _⟩ => rfl

/-- ENTRY (r, q) OF THE STRIP POINT t WRITES BACK is the layer at row 400·t + r, column q. -/
theorem strip_entry (c : Dev nD) (t : Fin cfg0.N) (r : Fin 400) (q : Fin 128) :
    (outsAt0 m c t.val t.isLt).1 (ix2 r q) = result m c (ix2 (rowAt t r) q) := by
  refine (congrFun (strip_at m c t) (ix2 r q)).trans ?_
  refine (Cert.KernelIdeal.Entry.pay2_apply _ _ _ _ _ _ r q).trans ?_
  show _ = Cert.GcnSpec.elu (Cert.GcnSpec.pre (argX m c) (argA m c) (argW m c) (argB m c) (argG m c) (rowAt t r) q)
  unfold Cert.GcnSpec.pre Cert.GcnSpec.propagated Cert.GcnSpec.gate0 Cert.GcnSpec.gate1
  rw [logit0_entry m c t, logit1_entry m c t, rows_entry m c t r q, bias_entry m c t q]
  simp only [adj_entry m c t r, held_entry m c]

/-- WHAT POINT t WRITES BACK is block t of the layer. -/
theorem flushed_eq (c : Dev nD) (t : Fin cfg0.N) :
    (dats m 0 c).flushed 5 t = ((cfg0.win 5).blk t).view.read (Elt Ideal) (result m c) := by
  obtain ⟨-, -, -, -, -, -, -, -, -, -, e0, e1, -⟩ := idx_facts t
  rw [Cert.KernelIdeal.Value.flushed5]
  funext y
  show (outsAt0 m c t.val t.isLt).1 y = result m c (((cfg0.win 5).blk t).view.emb y)
  have hy : y = (ix2 (y 0) (y 1) : S400x128.Idx) := eq_ix2 (n0 := 400) (n1 := 128) y
  rw [hy, strip_entry m c t (y 0) (y 1)]
  refine congrArg (result m c) ?_
  funext a; apply Fin.ext
  match a with
  | ⟨0, _⟩ => show 400 * t.val + (y 0).val = win0_5.index t (0 : Fin 2) * 400 + 1 * (y 0).val; rw [e0]; omega
  | ⟨1, _⟩ => show (y 1).val = win0_5.index t (1 : Fin 2) * 128 + 1 * (y 1).val; rw [e1]; omega

/-- An index of the array is in point t's block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2).slice (win0_5.rect t)).set ↔ _
  rw [View.set_slice_whole, Rect.mem_set_unit]
  exact Iff.rfl

/-- The 25 strips tile the array: row i₀ lies in strip i₀ / 400. -/
theorem cover (i : S10000x128.Idx) : ∃ t : Fin cfg0.N, (cfg0.win 5).flush t = true ∧ i ∈ ((cfg0.win 5).blk t).view.set := by
  have hN : cfg0.N = 25 := N_0
  have h0 : (i 0).val < 10000 := (i 0).isLt
  have h1 : (i 1).val < 128 := (i 1).isLt
  let t : Fin cfg0.N := ⟨(i 0).val / 400, by omega⟩
  obtain ⟨-, -, -, -, -, -, -, -, -, -, e0, e1, -⟩ := idx_facts t
  have ht : t.val = (i 0).val / 400 := rfl
  refine ⟨t, flush0_5 t, ?_⟩
  rw [mem_blk]
  intro a
  match a with
  | ⟨0, _⟩ => show win0_5.index t (0 : Fin 2) * 400 ≤ (i 0).val ∧ (i 0).val < win0_5.index t (0 : Fin 2) * 400 + 400; rw [e0, ht]; omega
  | ⟨1, _⟩ => show win0_5.index t (1 : Fin 2) * 128 ≤ (i 1).val ∧ (i 1).val < win0_5.index t (1 : Fin 2) * 128 + 128; rw [e1]; omega

/-- THE ARRAY after the run is the layer. -/
theorem final (c : Dev nD) : (dats m 0 c).arrAt 5 cfg0.N = result m c :=
  (dats m 0 c).arrAt_eq_of_cover 5 (result m c) (fun t _ => flushed_eq m c t) cover

/-- The run, read: the result array at the layer of the launched arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end AtIdeal

end Cert.KernelIdeal.Array

end
-- ==== Proof.RefStages.lean ====
/-
  The reference program's host operations composed into named stages, as pure functions of the argument
  arrays at any float instance: the two matrix products stacked with the raw features, the softmax of the
  two gate logits along the stacking axis, the gated sum plus the bias, and the exponential linear unit
  as the host spells it (a guarded e^z − 1 times the word of 1, selected off the positive branch).
  `refTerm` is their composition: the value the reference's result buffer ends with.
-/
import proofs.«160359_g19413252178072_cont_8to1_419_21_alg».proof.ReferenceIdeal

noncomputable section

namespace Cert.ReferenceIdeal.RefStages

open Idealize.ShloMosaic Cert.ReferenceIdeal
open Cert.ReferenceIdeal.Facts₀ Cert.ReferenceIdeal.Facts

variable {F : FTy → Type} [FloatOps F] [Cert.ReferenceIdeal.Facts]

/-- A · (X · W): the two host products, in the reference's order. -/
def propagatedStage (x : FVec F S10000x128 .f32) (a : FVec F S10000x10000 .f32) (w : FVec F S128x128 .f32) :
    FVec F S10000x128 .f32 :=
  Host.dotGeneral dot_S10000x10000_S10000x128_S10000x128_1_0_0_1_n_n none a
    (Host.dotGeneral dot_S10000x128_S128x128_S10000x128_1_0_0_1_n_n none x w)

/-- The propagated features stacked on the raw features along a new leading axis: [2, 10000, 128]. -/
def stackedStage (x : FVec F S10000x128 .f32) (a : FVec F S10000x10000 .f32) (w : FVec F S128x128 .f32) :
    FVec F S2x10000x128 .f32 :=
  concatenate S2x10000x128 0
    [⟨S1x10000x128, broadcastInDim S1x10000x128 ![1, 2] bcast_S10000x128_S1x10000x128_1_2 (propagatedStage x a w)⟩,
     ⟨S1x10000x128, broadcastInDim S1x10000x128 ![1, 2] bcast_S10000x128_S1x10000x128_1_2 x⟩]
    concatenates_S1x10000x128_S1x10000x128_S2x10000x128_d0

/-- The maximum of the two logits as the host takes it: a max-reduce from −∞ along axis 0, then a maximum with −∞. -/
def maxStage (al : FVec F S2x1x1 .f32) : FVec F S1x1 .f32 :=
  maximumf (broadcastInDim S1x1 ![] bcast_S_S1x1 (constant S_ .f32 0xFF800000#32))
    (Host.reduce FloatOps.maximumf al (constant S_ .f32 0xFF800000#32) reducesTo_S2x1x1_S1x1_d0 h_S_)

/-- The exponentials of the logits minus their maximum. -/
def expStage (al : FVec F S2x1x1 .f32) : FVec F S2x1x1 .f32 :=
  Host.exp (subf al (broadcastInDim S2x1x1 ![0, 1, 2] bcast_S1x1x1_S2x1x1_0_1_2
    (broadcastInDim S1x1x1 ![1, 2] bcast_S1x1_S1x1x1_1_2 (maxStage al))))

/-- The softmax of the logits along axis 0. -/
def gateStage (al : FVec F S2x1x1 .f32) : FVec F S2x1x1 .f32 :=
  Host.divf (expStage al) (broadcastInDim S2x1x1 ![0, 1, 2] bcast_S1x1x1_S2x1x1_0_1_2
    (broadcastInDim S1x1x1 ![1, 2] bcast_S1x1_S1x1x1_1_2
      (Host.reduceAdd (expStage al) (constant S_ .f32 0x00000000#32) reducesTo_S2x1x1_S1x1_d0 h_S_)))

/-- The gated sum over the stacking axis, plus the bias broadcast along the rows: the pre-activation. -/
def preStage (x : FVec F S10000x128 .f32) (a : FVec F S10000x10000 .f32) (w : FVec F S128x128 .f32)
    (b : FVec F S128 .f32) (al : FVec F S2x1x1 .f32) : FVec F S10000x128 .f32 :=
  addf
    (Host.reduceAdd
      (mulf (stackedStage x a w) (broadcastInDim S2x10000x128 ![0, 1, 2] bcast_S2x1x1_S2x10000x128_0_1_2 (gateStage al)))
      (constant S_ .f32 0x00000000#32) reducesTo_S2x10000x128_S10000x128_d0 h_S_)
    (broadcastInDim S10000x128 ![0, 1] bcast_S1x128_S10000x128_0_1 (broadcastInDim S1x128 ![1] bcast_S128_S1x128_1 b))

/-- The host's exponential linear unit of a whole array. -/
def eluStage (y : FVec F S10000x128 .f32) : FVec F S10000x128 .f32 :=
  select (cmpf .ogt y (broadcastInDim S10000x128 ![] bcast_S_S10000x128 (constant S_ .f32 0x00000000#32))) y
    (mulf (broadcastInDim S10000x128 ![] bcast_S_S10000x128 (constant S_ .f32 0x3F800000#32))
      (Host.expm1
        (select (cmpf .ogt y (broadcastInDim S10000x128 ![] bcast_S_S10000x128 (constant S_ .f32 0x00000000#32)))
          (broadcastInDim S10000x128 ![] bcast_S_S10000x128 (constant S_ .f32 0x00000000#32)) y)))

/-- THE REFERENCE'S VALUE: its result as one term of the argument arrays. -/
def refTerm (x : FVec F S10000x128 .f32) (a : FVec F S10000x10000 .f32) (w : FVec F S128x128 .f32)
    (b : FVec F S128 .f32) (al : FVec F S2x1x1 .f32) : FVec F S10000x128 .f32 :=
  eluStage (preStage x a w b al)

end Cert.ReferenceIdeal.RefStages

end
-- ==== Proof.RefRun.lean ====
/-
  The reference program's run. Its @main is a straight line of host operations: twenty-six of its own (the two
  matrix products, the stacking of the propagated and the raw features, the softmax of the two gate logits
  along the stacking axis, the gated sum, the bias), then the activation, a function of the module that
  itself calls the two selection helpers. A call means the callee's body on the operands, so the line is
  listed here with the activation's fifteen operations in place of the call (the helpers' four in place of
  theirs), each over the buffers that call names: forty-one operations in all. The program equals the
  sequence of that list; every weakly fair execution of it from a memory with zero counters therefore
  terminates with each buffer at the list's fold over the launch contents, and that fold, read at the result
  buffer, is the composition of the operations' pure functions on the five argument arrays — the term
  `RefStages.refTerm` — while no operation writes an argument buffer.
-/
import proofs.«160359_g19413252178072_cont_8to1_419_21_alg».proof.Proof.Gen.ReferenceIdeal
import proofs.«160359_g19413252178072_cont_8to1_419_21_alg».proof.Proof.RefStages
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- The reference's operations in order. The first twenty-six are @main's own. The next seven open the
    activation on the pre-activation `main_v21`: a zero, its broadcast and the test `> 0`, twice over (the
    second test guards the exponential), and the zero the guard substitutes. Then the first selection helper's
    three (that zero converted to its own type, broadcast, and the select that keeps the pre-activation only where
    it is not positive), the activation's e^z − 1 of it, the one, its broadcast and their product, and last the
    second helper's single select between the pre-activation and that product, into the result buffer. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_v1 main_v2 (broadcastInDim S1x10000x128 ![1, 2] bcast_S10000x128_S1x10000x128_1_2 : (⟨S10000x128, .f32⟩ : BufTy).Contents (Elt F) → (⟨S1x10000x128, .f32⟩ : BufTy).Contents (Elt F)),
    unary main_arg0 main_v3 (broadcastInDim S1x10000x128 ![1, 2] bcast_S10000x128_S1x10000x128_1_2 : (⟨S10000x128, .f32⟩ : BufTy).Contents (Elt F) → (⟨S1x10000x128, .f32⟩ : BufTy).Contents (Elt F)),
    binary main_v2 main_v3 main_v4 ((fun a b => concatenate S2x10000x128 0 [⟨S1x10000x128, a⟩, ⟨S1x10000x128, b⟩] concatenates_S1x10000x128_S1x10000x128_S2x10000x128_d0) : (⟨S1x10000x128, .f32⟩ : BufTy).Contents (Elt F) → (⟨S1x10000x128, .f32⟩ : BufTy).Contents (Elt F) → (⟨S2x10000x128, .f32⟩ : BufTy).Contents (Elt F)),
    nullary main_cst (constant S_ .f32 0xFF800000#32),
    binary main_arg4 main_cst main_v5 ((fun x v => Host.reduce FloatOps.maximumf x v reducesTo_S2x1x1_S1x1_d0 h_S_) : (⟨S2x1x1, .f32⟩ : BufTy).Contents (Elt F) → (⟨S_, .f32⟩ : BufTy).Contents (Elt F) → (⟨S1x1, .f32⟩ : BufTy).Contents (Elt F)),
    nullary main_cst_0 (constant S_ .f32 0xFF800000#32),
    unary main_cst_0 main_v6 (broadcastInDim S1x1 ![] bcast_S_S1x1 : (⟨S_, .f32⟩ : BufTy).Contents (Elt F) → (⟨S1x1, .f32⟩ : BufTy).Contents (Elt F)),
    binary main_v6 main_v5 main_v7 (maximumf : (⟨S1x1, .f32⟩ : BufTy).Contents (Elt F) → (⟨S1x1, .f32⟩ : BufTy).Contents (Elt F) → (⟨S1x1, .f32⟩ : BufTy).Contents (Elt F)),
    unary main_v7 main_v8 (broadcastInDim S1x1x1 ![1, 2] bcast_S1x1_S1x1x1_1_2 : (⟨S1x1, .f32⟩ : BufTy).Contents (Elt F) → (⟨S1x1x1, .f32⟩ : BufTy).Contents (Elt F)),
    unary main_v8 main_v9 (broadcastInDim S2x1x1 ![0, 1, 2] bcast_S1x1x1_S2x1x1_0_1_2 : (⟨S1x1x1, .f32⟩ : BufTy).Contents (Elt F) → (⟨S2x1x1, .f32⟩ : BufTy).Contents (Elt F)),
    binary main_arg4 main_v9 main_v10 (subf : (⟨S2x1x1, .f32⟩ : BufTy).Contents (Elt F) → (⟨S2x1x1, .f32⟩ : BufTy).Contents (Elt F) → (⟨S2x1x1, .f32⟩ : BufTy).Contents (Elt F)),
    unary main_v10 main_v11 (Host.exp : (⟨S2x1x1, .f32⟩ : BufTy).Contents (Elt F) → (⟨S2x1x1, .f32⟩ : BufTy).Contents (Elt F)),
    nullary main_cst_1 (constant S_ .f32 0x00000000#32),
    binary main_v11 main_cst_1 main_v12 ((fun x v => Host.reduceAdd x v reducesTo_S2x1x1_S1x1_d0 h_S_) : (⟨S2x1x1, .f32⟩ : BufTy).Contents (Elt F) → (⟨S_, .f32⟩ : BufTy).Contents (Elt F) → (⟨S1x1, .f32⟩ : BufTy).Contents (Elt F)),
    unary main_v12 main_v13 (broadcastInDim S1x1x1 ![1, 2] bcast_S1x1_S1x1x1_1_2 : (⟨S1x1, .f32⟩ : BufTy).Contents (Elt F) → (⟨S1x1x1, .f32⟩ : BufTy).Contents (Elt F)),
    unary main_v13 main_v14 (broadcastInDim S2x1x1 ![0, 1, 2] bcast_S1x1x1_S2x1x1_0_1_2 : (⟨S1x1x1, .f32⟩ : BufTy).Contents (Elt F) → (⟨S2x1x1, .f32⟩ : BufTy).Contents (Elt F)),
    binary main_v11 main_v14 main_v15 (Host.divf : (⟨S2x1x1, .f32⟩ : BufTy).Contents (Elt F) → (⟨S2x1x1, .f32⟩ : BufTy).Contents (Elt F) → (⟨S2x1x1, .f32⟩ : BufTy).Contents (Elt F)),
    unary main_v15 main_v16 (broadcastInDim S2x10000x128 ![0, 1, 2] bcast_S2x1x1_S2x10000x128_0_1_2 : (⟨S2x1x1, .f32⟩ : BufTy).Contents (Elt F) → (⟨S2x10000x128, .f32⟩ : BufTy).Contents (Elt F)),
    binary main_v4 main_v16 main_v17 (mulf : (⟨S2x10000x128, .f32⟩ : BufTy).Contents (Elt F) → (⟨S2x10000x128, .f32⟩ : BufTy).Contents (Elt F) → (⟨S2x10000x128, .f32⟩ : BufTy).Contents (Elt F)),
    nullary main_cst_2 (constant S_ .f32 0x00000000#32),
    binary main_v17 main_cst_2 main_v18 ((fun x v => Host.reduceAdd x v reducesTo_S2x10000x128_S10000x128_d0 h_S_) : (⟨S2x10000x128, .f32⟩ : BufTy).Contents (Elt F) → (⟨S_, .f32⟩ : BufTy).Contents (Elt F) → (⟨S10000x128, .f32⟩ : BufTy).Contents (Elt F)),
    unary main_arg3 main_v19 (broadcastInDim S1x128 ![1] bcast_S128_S1x128_1 : (⟨S128, .f32⟩ : BufTy).Contents (Elt F) → (⟨S1x128, .f32⟩ : BufTy).Contents (Elt F)),
    unary main_v19 main_v20 (broadcastInDim S10000x128 ![0, 1] bcast_S1x128_S10000x128_0_1 : (⟨S1x128, .f32⟩ : BufTy).Contents (Elt F) → (⟨S10000x128, .f32⟩ : BufTy).Contents (Elt F)),
    binary main_v18 main_v20 main_v21 (addf : (⟨S10000x128, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v21) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v21) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v21) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v21) main_call0.v7 main_call0.call1.v0 select ]

-- forty-one binds re-associated: the rewrite under the chain recurses once per statement
set_option maxRecDepth 1024 in
/-- @main is that straight line: with the three functions' bodies unfolded at their calls, both sides are one
    chain of host steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

attribute [local irreducible] Host.reduce Host.reduceAdd concatenate broadcastInDim Host.exp Host.expm1 Host.divf in
set_option maxRecDepth 8192 in
/-- The fold at the result buffer is the reference's term, by computation: the fold unrolled, each operation
    decides whether the buffer read is the one it writes, and a typed reference's transport is the identity at
    a literal reference. The reductions, the stacking, the broadcasts and the host's exponentials and quotient
    stay folded meanwhile: the equation never looks inside them, and the arrays are far too large to open. -/
theorem out_eq (V : Valuation τ sig (Elt F)) :
    after ops V (main_v22 : DevRef τ sig)
      = RefStages.refTerm (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

/-! No operation of the line writes an argument buffer: the fold leaves each at its launch contents. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- At the compiled mesh, for any float values, from any memory with zero counters: every weakly fair execution
    of @main on the TensorCores terminates, and every final state has each TensorCore buffer at the operations'
    fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- THE REFERENCE'S RUN: every weakly fair execution of @main from a memory with zero counters terminates with
    the result buffer at the reference's term of the five argument arrays' launch contents, and the argument
    buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v22)
          = RefStages.refTerm (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c main_v22).trans (out_eq _),
      (h c main_arg0).trans (arg0_eq _), (h c main_arg1).trans (arg1_eq _), (h c main_arg2).trans (arg2_eq _),
      (h c main_arg3).trans (arg3_eq _), (h c main_arg4).trans (arg4_eq _)⟩)
    (run_fold m ρ)

end Cert.ReferenceIdeal.RefRun

end
-- ==== Proof.RefValue.lean ====
/-
  The reference's value, entry by entry, on the extended reals: each host stage read at an index.

  A rows-by-columns product at (a, b) is the sum over the contracted coordinate of the products of the entries, so
  the propagated features at (p, q) are Σ_k A(p, k) · Σ_l X(k, l) · W(l, q). The two logits' maximum is a fold of max
  from −∞; their exponentials less that maximum, divided by the sum of the two, are the softmax weights. The stack
  along the new leading axis holds the propagated entry at 0 and the raw feature at 1; multiplied by the broadcast
  weights and summed over that axis from 0, plus the bias entry of the column, it is the pre-activation; the guarded
  e^z − 1 spelling of the activation is elu. Only three laws are used: the product commutes, 0 + z = z, and −∞ is
  below everything.
-/
import proofs.«160359_g19413252178072_cont_8to1_419_21_alg».proof.Proof.RefStages
import proofs.«160359_g19413252178072_cont_8to1_419_21_alg».proof.Proof.GcnSpec
import proofs.«160359_g19413252178072_cont_8to1_419_21_alg».proof.Proof.Gen.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal
open Cert.ReferenceIdeal.Facts₀ Cert.ReferenceIdeal.Facts
open scoped BigOperators

/-- A rows-by-columns product read at an entry: entry (a, b) of A · B is the sum over the contracted coordinate c of
    A(a, c) · B(c, b). Both operand indices are named coordinate by coordinate: the kept axis reads the result index,
    the contracted axis reads c. -/
theorem dot2_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A fold of a commutative, associative operation over the two-element index set: both entries joined to the
    initial value. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The float word 0xFF800000 is −∞, the bottom of the extended reals. -/
theorem ofBits_negInf_f32 : Ideal.ofBits .f32 0xFF800000#32 = (⊥ : EReal) := by simp [Ideal.ofBits, Ideal.ieee]

/-- Index (0, 0) of the reduced logits with coordinate k put back on the stacking axis is (k, 0, 0). -/
theorem lift_logits (h : S2x1x1.Reduces [0] S1x1) (k : Fin (S2x1x1.size 0)) :
    h.lift (ix2 (0 : Fin 1) (0 : Fin 1)) k = ix3 (⟨k.val, k.isLt⟩ : Fin 2) (0 : Fin 1) (0 : Fin 1) := by
  funext c; apply Fin.ext
  fin_cases c <;> rfl

/-- Index (p, q) of the reduced stack with coordinate g put back on the stacking axis is (g, p, q). -/
theorem lift_stack (h : S2x10000x128.Reduces [0] S10000x128) (p : Fin 10000) (q : Fin 128)
    (k : Fin (S2x10000x128.size 0)) :
    h.lift (ix2 p q) k = ix3 (⟨k.val, k.isLt⟩ : Fin 2) p q := by
  funext c; apply Fin.ext
  fin_cases c <;> rfl

section
variable [Cert.ReferenceIdeal.Facts]

/-- Entry (p, q) of the propagated features: the outer product sums over the 10000 nodes k the adjacency entry (p, k)
    times entry (k, q) of the support, itself the sum over the 128 input features l of X(k, l) · W(l, q). The inner
    sum is read under the outer one, term by term. -/
theorem propagatedStage_apply (x : FVec Ideal S10000x128 .f32) (a : FVec Ideal S10000x10000 .f32)
    (w : FVec Ideal S128x128 .f32) (p : Fin 10000) (q : Fin 128) :
    RefStages.propagatedStage (F := Ideal) x a w (ix2 p q) = Cert.GcnSpec.propagated x a w p q := by
  unfold RefStages.propagatedStage Cert.GcnSpec.propagated
  refine (dot2_apply dot_S10000x10000_S10000x128_S10000x128_1_0_0_1_n_n_wf none a _ p q).trans ?_
  refine Finset.sum_congr rfl fun k _ => ?_
  unfold Cert.GcnSpec.support
  exact congrArg (a (ix2 p k) * ·) (dot2_apply dot_S10000x128_S128x128_S10000x128_1_0_0_1_n_n_wf none x w k q)

/-- The maximum of the two logits: the max-reduce from −∞ over the stacking axis folds both entries into −∞, and a
    further maximum with −∞ changes nothing (−∞ is below everything). -/
theorem maxStage_apply (al : FVec Ideal S2x1x1 .f32) :
    RefStages.maxStage (F := Ideal) al (ix2 0 0) = max (al (ix3 0 0 0)) (al (ix3 1 0 0)) := by
  unfold RefStages.maxStage
  have h : S2x1x1.Reduces [0] S1x1 := by decide
  rw [maximumf_apply, broadcastInDim_scalar_apply, constant_apply,
    Host.reduce_eq_fold_single FloatOps.maximumf al _ reducesTo_S2x1x1_S1x1_d0 h h_S_,
    ofBits_negInf_f32, max_bot_left]
  refine (fold_univ_fin2 FloatOps.maximumf _ _).trans ?_
  show max (al (h.lift _ (0 : Fin 2))) (max (al (h.lift _ (1 : Fin 2))) (Ideal.ofBits .f32 0xFF800000#32)) = _
  rw [ofBits_negInf_f32, max_bot_right]
  exact congrArg₂ max (congrArg al (lift_logits h _)) (congrArg al (lift_logits h _))

/-- Through the two broadcasts [1,1] → [1,1,1] → [2,1,1] every entry of the result is the one entry of the operand:
    all the operand's axes are unit axes, so each reads coordinate 0. -/
theorem bcast_unit_apply {α : Type} (z : S1x1.Idx → α) (g : Fin 2) :
    broadcastInDim S2x1x1 ![0, 1, 2] bcast_S1x1x1_S2x1x1_0_1_2
      (broadcastInDim S1x1x1 ![1, 2] bcast_S1x1_S1x1x1_1_2 z) (ix3 g 0 0) = z (ix2 0 0) := by
  refine (broadcastInDim_apply _ _ _ _ (ix3 0 0 0)
    (fun a => match a with | ⟨0, _⟩ => rfl | ⟨1, _⟩ => rfl | ⟨2, _⟩ => rfl)).trans ?_
  exact broadcastInDim_apply _ _ _ _ (ix2 0 0) (fun a => match a with | ⟨0, _⟩ => rfl | ⟨1, _⟩ => rfl)

/-- The exponential of logit g less the maximum of the two logits. -/
theorem expStage_apply (al : FVec Ideal S2x1x1 .f32) (g : Fin 2) :
    RefStages.expStage (F := Ideal) al (ix3 g 0 0)
      = Ideal.exp (al (ix3 g 0 0) - max (al (ix3 0 0 0)) (al (ix3 1 0 0))) := by
  unfold RefStages.expStage
  show FloatOps.hostUnary .exp (subf al _ (ix3 g 0 0)) = _
  rw [Ideal.hostUnary_exp_def, subf_apply, bcast_unit_apply, maxStage_apply]

/-- The softmax weight of logit g: its exponential over the sum, from 0, of the two exponentials (0 + z = z). -/
theorem gateStage_apply (al : FVec Ideal S2x1x1 .f32) (g : Fin 2) :
    RefStages.gateStage (F := Ideal) al (ix3 g 0 0)
      = Cert.GcnSpec.weight (al (ix3 0 0 0)) (al (ix3 1 0 0)) (al (ix3 g 0 0)) := by
  have h : S2x1x1.Reduces [0] S1x1 := by decide
  unfold RefStages.gateStage Cert.GcnSpec.weight
  rw [hostDivf_apply, bcast_unit_apply, hostReduceAdd_apply, Ideal.hostReduceAdd_single _ h, constant_apply,
    Ideal.ofBits_zero_f32, zero_add, expStage_apply]
  refine congrArg (Ideal.div _) ?_
  refine (Fin.sum_univ_two (fun k : Fin 2 => RefStages.expStage (F := Ideal) al (h.lift (ix2 0 0) k))).trans ?_
  exact congrArg₂ (· + ·)
    ((congrArg (RefStages.expStage (F := Ideal) al) (lift_logits h _)).trans (expStage_apply al 0))
    ((congrArg (RefStages.expStage (F := Ideal) al) (lift_logits h _)).trans (expStage_apply al 1))

/-- A [10000, 128] array given a leading unit axis reads, at (0, p, q), its entry (p, q). -/
theorem bcast_lead_apply {α : Type} (y : S10000x128.Idx → α) (p : Fin 10000) (q : Fin 128) :
    broadcastInDim S1x10000x128 ![1, 2] bcast_S10000x128_S1x10000x128_1_2 y (ix3 0 p q) = y (ix2 p q) :=
  broadcastInDim_apply _ _ _ _ (ix2 p q) (fun a => match a with | ⟨0, _⟩ => rfl | ⟨1, _⟩ => rfl)

/-- Two [1, 10000, 128] pieces laid along the leading axis, read in the first piece. -/
theorem concat_zero {α : Type} (u v : S1x10000x128.Idx → α) (p : Fin 10000) (q : Fin 128) :
    concatenate S2x10000x128 0 [⟨S1x10000x128, u⟩, ⟨S1x10000x128, v⟩]
      concatenates_S1x10000x128_S1x10000x128_S2x10000x128_d0 (ix3 0 p q) = u (ix3 0 p q) :=
  concatenate_pair_apply_left (t := S2x10000x128) (s₁ := S1x10000x128) (s₂ := S1x10000x128) 0 u v
    concatenates_S1x10000x128_S1x10000x128_S2x10000x128_d0 (ix3 (0 : Fin 2) p q) rfl (ix3 (0 : Fin 1) p q)
    (fun b => match b with | ⟨0, _⟩ => rfl | ⟨1, _⟩ => rfl | ⟨2, _⟩ => rfl)

/-- … and in the second piece: coordinate 1 on the leading axis is the second piece's coordinate 0, one extent on. -/
theorem concat_one {α : Type} (u v : S1x10000x128.Idx → α) (p : Fin 10000) (q : Fin 128) :
    concatenate S2x10000x128 0 [⟨S1x10000x128, u⟩, ⟨S1x10000x128, v⟩]
      concatenates_S1x10000x128_S1x10000x128_S2x10000x128_d0 (ix3 1 p q) = v (ix3 0 p q) :=
  concatenate_pair_apply_right (t := S2x10000x128) (s₁ := S1x10000x128) (s₂ := S1x10000x128) 0 u v
    concatenates_S1x10000x128_S1x10000x128_S2x10000x128_d0 (ix3 (1 : Fin 2) p q) rfl rfl (ix3 (0 : Fin 1) p q)
    (fun b => match b with
      | ⟨0, _⟩ => fun hb => absurd rfl hb
      | ⟨1, _⟩ => fun _ => rfl
      | ⟨2, _⟩ => fun _ => rfl) rfl

/-- The stack at (0, p, q) is the propagated entry (p, q). -/
theorem stackedStage_apply_zero (x : FVec Ideal S10000x128 .f32) (a : FVec Ideal S10000x10000 .f32)
    (w : FVec Ideal S128x128 .f32) (p : Fin 10000) (q : Fin 128) :
    RefStages.stackedStage (F := Ideal) x a w (ix3 0 p q) = RefStages.propagatedStage (F := Ideal) x a w (ix2 p q) := by
  unfold RefStages.stackedStage
  rw [concat_zero, bcast_lead_apply]

/-- The stack at (1, p, q) is the raw feature (p, q). -/
theorem stackedStage_apply_one (x : FVec Ideal S10000x128 .f32) (a : FVec Ideal S10000x10000 .f32)
    (w : FVec Ideal S128x128 .f32) (p : Fin 10000) (q : Fin 128) :
    RefStages.stackedStage (F := Ideal) x a w (ix3 1 p q) = x (ix2 p q) := by
  unfold RefStages.stackedStage
  rw [concat_one, bcast_lead_apply]

/-- The gate array [2, 1, 1] broadcast over the stack reads, at (g, p, q), its entry (g, 0, 0). -/
theorem bcast_gate_apply {α : Type} (y : S2x1x1.Idx → α) (g : Fin 2) (p : Fin 10000) (q : Fin 128) :
    broadcastInDim S2x10000x128 ![0, 1, 2] bcast_S2x1x1_S2x10000x128_0_1_2 y (ix3 g p q) = y (ix3 g 0 0) :=
  broadcastInDim_apply _ _ _ _ (ix3 g 0 0) (fun a => match a with | ⟨0, _⟩ => rfl | ⟨1, _⟩ => rfl | ⟨2, _⟩ => rfl)

/-- The bias [128], made a row and broadcast down the 10000 rows, reads at (p, q) its entry q. -/
theorem bcast_bias_apply {α : Type} (b : S128.Idx → α) (p : Fin 10000) (q : Fin 128) :
    broadcastInDim S10000x128 ![0, 1] bcast_S1x128_S10000x128_0_1
      (broadcastInDim S1x128 ![1] bcast_S128_S1x128_1 b) (ix2 p q) = b (ix1 q) := by
  refine (broadcastInDim_apply _ _ _ _ (ix2 0 q) (fun a => match a with | ⟨0, _⟩ => rfl | ⟨1, _⟩ => rfl)).trans ?_
  exact broadcastInDim_apply _ _ _ _ (ix1 q) (fun a => match a with | ⟨0, _⟩ => rfl)

/-- One term of the gated sum: the stack's entry (g, p, q) times the softmax weight of logit g. -/
theorem gated_apply (x : FVec Ideal S10000x128 .f32) (a : FVec Ideal S10000x10000 .f32) (w : FVec Ideal S128x128 .f32)
    (al : FVec Ideal S2x1x1 .f32) (g : Fin 2) (p : Fin 10000) (q : Fin 128) :
    mulf (RefStages.stackedStage (F := Ideal) x a w)
        (broadcastInDim S2x10000x128 ![0, 1, 2] bcast_S2x1x1_S2x10000x128_0_1_2 (RefStages.gateStage (F := Ideal) al))
        (ix3 g p q)
      = RefStages.stackedStage (F := Ideal) x a w (ix3 g p q)
        * Cert.GcnSpec.weight (al (ix3 0 0 0)) (al (ix3 1 0 0)) (al (ix3 g 0 0)) := by
  rw [mulf_apply, bcast_gate_apply, gateStage_apply]

/-- The pre-activation at (p, q): the sum over the stacking axis, from 0, of the two gated terms — the propagated
    entry times the first weight, the raw feature times the second — plus the bias entry q; the products commute
    into the order gate · value. -/
theorem preStage_apply (x : FVec Ideal S10000x128 .f32) (a : FVec Ideal S10000x10000 .f32) (w : FVec Ideal S128x128 .f32)
    (b : FVec Ideal S128 .f32) (al : FVec Ideal S2x1x1 .f32) (p : Fin 10000) (q : Fin 128) :
    RefStages.preStage (F := Ideal) x a w b al (ix2 p q) = Cert.GcnSpec.pre x a w b al p q := by
  have h : S2x10000x128.Reduces [0] S10000x128 := by decide
  unfold RefStages.preStage Cert.GcnSpec.pre Cert.GcnSpec.gate0 Cert.GcnSpec.gate1
  rw [addf_apply, bcast_bias_apply, hostReduceAdd_apply, Ideal.hostReduceAdd_single _ h, constant_apply,
    Ideal.ofBits_zero_f32, zero_add]
  simp only [lift_stack]
  refine congrArg (· + b (ix1 q)) ?_
  refine (Fin.sum_univ_two _).trans ?_
  refine congrArg₂ (· + ·) ((gated_apply x a w al 0 p q).trans ?_) ((gated_apply x a w al 1 p q).trans ?_)
  · rw [stackedStage_apply_zero, propagatedStage_apply, mul_comm]
  · rw [stackedStage_apply_one, mul_comm]

/-- The activation entry by entry: the comparison, both selects, the product with the word of 1 and e^z − 1 all act
    on the one entry (p, q), the broadcast scalars read the words of 0 and 1; the scalar law joins the host's
    spelling to elu. -/
theorem eluStage_apply (y : FVec Ideal S10000x128 .f32) (p : Fin 10000) (q : Fin 128) :
    RefStages.eluStage (F := Ideal) y (ix2 p q) = Cert.GcnSpec.elu (y (ix2 p q)) := by
  unfold RefStages.eluStage
  simp only [select_apply, mulf_apply, cmpf_apply, Ideal.cmpf_def, broadcastInDim_scalar_apply, constant_apply,
    Host.expm1, Ideal.hostUnary_expm1_def]
  exact Cert.GcnSpec.elu_of_guard _

/-- THE REFERENCE'S VALUE IS THE LAYER: at every entry (p, q) the activation reads the pre-activation there, which is
    the gated sum of the propagated and the raw feature plus the bias. -/
theorem refTerm_eq (x : FVec Ideal S10000x128 .f32) (a : FVec Ideal S10000x10000 .f32) (w : FVec Ideal S128x128 .f32)
    (b : FVec Ideal S128 .f32) (al : FVec Ideal S2x1x1 .f32) :
    RefStages.refTerm (F := Ideal) x a w b al = Cert.GcnSpec.layer x a w b al := by
  funext i
  obtain ⟨p, q, rfl⟩ : ∃ (p : Fin 10000) (q : Fin 128), i = ix2 p q := ⟨i 0, i 1, eq_ix2 i⟩
  rw [Cert.GcnSpec.layer_apply]
  unfold RefStages.refTerm
  rw [eluStage_apply, preStage_apply]

end

end Cert.ReferenceIdeal.RefValue

end
-- ==== Proof.lean ====
/-
  A gated graph-convolution layer, fused into one kernel, against its plain reference:

      out = elu( g0 · (A · (X · W)) + g1 · X + b ),      (g0, g1) = softmax of two logits.

  The kernel streams the dense adjacency A in 25 strips of 400 rows. At the first grid point it computes the
  support X·W once and keeps it in a scratch buffer; every point multiplies its strip of A by that support,
  adds the gated rows of X and the bias, applies the activation and writes strip t of the result. The reference
  computes the two products whole, stacks A·(X·W) on X, multiplies by the softmax of the logits along the
  stacking axis, sums that axis, adds the bias and applies the activation through e^z − 1.

  On the extended reals both are the same function of the five arguments, entry by entry: the contractions are
  the same finite sums in the same order (first over the 128 features, then over the 10000 nodes), the two-term
  sum over the stacking axis is g0·(A·X·W) + g1·X after commuting each product and dropping the zero it starts
  from, the maximum the host takes from −∞ is the maximum of the two logits, and
  e^{min(y,0)} − 1 = 1·(e^{y} − 1) wherever y is not positive. No finiteness of the inputs is used.

  The frames of the two kernel programs are the generated ones; the reference's run is its forty-one host
  operations in order (the activation's outlined body in place); the kernel's result array is read off the
  generated frame run strip by strip.
-/
import proofs.«160359_g19413252178072_cont_8to1_419_21_alg».proof.Defs
import proofs.«160359_g19413252178072_cont_8to1_419_21_alg».proof.Proof.Gen.Kernel
import proofs.«160359_g19413252178072_cont_8to1_419_21_alg».proof.Proof.Gen.Kernel.Skeleton
import proofs.«160359_g19413252178072_cont_8to1_419_21_alg».proof.Proof.Gen.Kernel.Launch
import proofs.«160359_g19413252178072_cont_8to1_419_21_alg».proof.Proof.Gen.Kernel.Points
import proofs.«160359_g19413252178072_cont_8to1_419_21_alg».proof.Proof.Gen.Kernel.Frame
import proofs.«160359_g19413252178072_cont_8to1_419_21_alg».proof.Proof.Gen.KernelIdeal
import proofs.«160359_g19413252178072_cont_8to1_419_21_alg».proof.Proof.Gen.KernelIdeal.Skeleton
import proofs.«160359_g19413252178072_cont_8to1_419_21_alg».proof.Proof.Gen.KernelIdeal.Launch
import proofs.«160359_g19413252178072_cont_8to1_419_21_alg».proof.Proof.Gen.KernelIdeal.Points
import proofs.«160359_g19413252178072_cont_8to1_419_21_alg».proof.Proof.Gen.KernelIdeal.Frame
import proofs.«160359_g19413252178072_cont_8to1_419_21_alg».proof.Proof.Gen.KernelIdeal.Value
import proofs.«160359_g19413252178072_cont_8to1_419_21_alg».proof.Proof.Gen.ReferenceIdeal
import proofs.«160359_g19413252178072_cont_8to1_419_21_alg».proof.Proof.Gen.Pre_finite_inputs
import proofs.«160359_g19413252178072_cont_8to1_419_21_alg».proof.Proof.GcnSpec
import proofs.«160359_g19413252178072_cont_8to1_419_21_alg».proof.Proof.KernelArray
import proofs.«160359_g19413252178072_cont_8to1_419_21_alg».proof.Proof.RefRun
import proofs.«160359_g19413252178072_cont_8to1_419_21_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- On the extended reals the kernel's result array ends at the layer of its arguments, and the reference's result
    at its composed term of arguments that agree, which is the same layer entry by entry. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
